-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S256x1024 .f32) (main_arg2 : FVec F S1024x1024 .f32) (main_arg3 : FVec F S1024 .f32) (main_arg4 : FVec F S1024x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x4096x1024 : Shape := ⟨3, ![8, 4096, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S1x1024 : Shape := ⟨2, ![1, 1024]⟩
abbrev S1x512x1024 : Shape := ⟨3, ![1, 512, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S256x1024, .bf16⟩
  | .hbm, ⟨11, _⟩ => ⟨S1024x256, .f32⟩
  | .hbm, ⟨12, _⟩ => ⟨S1024x256, .bf16⟩
  | .hbm, ⟨13, _⟩ => ⟨S1x1024, .f32⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S1024x256, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S1024x1024_S1024x1024_1_0 : S1024x1024.Transposes [1, 0] S1024x1024
  bitsLt_bf16_f32 : FTy.bits .bf16 < FTy.bits .f32
  transposes_S256x1024_S1024x256_1_0 : S256x1024.Transposes [1, 0] S1024x256
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S512x256_S512 : S512x256.Reduces [1] S512
  shapeCasts_S512_S512x1 : S512.ShapeCasts S512x1
  broadcasts_S512x1_S512x256 : S512x1.Broadcasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x4096x1024.size a
  hwx0_7 : ∀ i : grid0.Coords, EltTy.bits .f32 = 32 ∨ (Rect.block (s := S8x4096x1024) S1x512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S1024x1024 : Shape := ⟨2, ![1024, 1024]⟩
abbrev S1024 : Shape := ⟨1, ![1024]⟩
abbrev S1x1x1024 : Shape := ⟨3, ![1, 1, 1024]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S8x4096x1024, .f32⟩
  | .hbm, ⟨7, _⟩ => ⟨S1x1x1024, .f32⟩
  | .hbm, ⟨8, _⟩ => ⟨S8x4096x1024, .f32⟩
  | .hbm, ⟨9, _⟩ => ⟨S8x4096x1024, .f32⟩
  | .hbm, ⟨10, _⟩ => ⟨S8x4096x256, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096x1, .f32⟩
  | .hbm, ⟨17, _⟩ => ⟨S8x4096x256, .f32⟩
  | .hbm, ⟨18, _⟩ => ⟨S8x4096x256, .f32⟩
  | .hbm, ⟨19, _⟩ => ⟨S8x4096x256, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x256, .f32⟩
  | .hbm, ⟨24, _⟩ => ⟨S8x4096x256, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x256_S8x4096_d2 : S8x4096x256.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x256_0_1_2 : S8x4096x1.BroadcastsInDim S8x4096x256 (![0, 1, 2] : Fin 3 → Fin S8x4096x256.rank)
  dot_S8x4096x1024_S1024x1024_S8x4096x1024_2_1_01_0_n_n_wf : DotDims.WF S8x4096x1024 S1024x1024 S8x4096x1024 [2] [1] [0, 1] [0] [] []
  dot_S8x4096x1024_S256x1024_S8x4096x256_2_1_01_0_n_n_wf : DotDims.WF S8x4096x1024 S256x1024 S8x4096x256 [2] [1] [0, 1] [0] [] []
  dot_S8x4096x256_S256x1024_S8x4096x1024_2_0_01_1_n_n_wf : DotDims.WF S8x4096x256 S256x1024 S8x4096x1024 [2] [0] [0, 1] [1] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x4096x256_S256x1024_S8x4096x1024_2_0_01_1_n_n : DotDims S8x4096x256 S256x1024 S8x4096x1024 where
  lhsContracting := [2]
  rhsContracting := [0]
  lhsNonContracting := [0, 1]
  rhsNonContracting := [1]
  lhsBatch := []
  rhsBatch := []
  wf := dot_S8x4096x256_S256x1024_S8x4096x1024_2_0_01_1_n_n_wf

class Facts : Prop extends Facts₀ where

variable [Facts]
-- ==== Proof.KernelDots.lean ====
/-
  The kernel's three matrix products read at an index, at the ideal values.

  Each is a row-by-column product accumulated into a zero block: [512, 1024] × [1024, 1024], [512, 1024] × [1024, 256] and
  [512, 256] × [256, 1024]. At (a, b) the result is the sum over the contracted coordinate k of (row a, k) of the left operand
  times (k, column b) of the right. The operand indices a product's dimension numbers name are identified coordinate by
  coordinate, and the one-axis contraction index is re-indexed by its single coordinate.
-/
import proofs.«101912_j82952998355251_1_alg».proof.Proof.Gen.KernelIdeal
import Idealize.ShloMosaic.PureOps.Ideal.Laws
import Idealize.ShloMosaic.Lib.ValueIdx

noncomputable section

open scoped BigOperators

namespace Cert.Attn.KernelDots

open Cert.KernelIdeal Idealize.ShloMosaic Idealize.ShloMosaic.ValueIdx

/-- The left operand's row coordinate is the output's row. -/
theorem qk_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column coordinate is the contracted one. -/
theorem qk_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row coordinate is the contracted one. -/
theorem qk_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column coordinate is the output's column. -/
theorem qk_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512, 1024] × [1024, 1024] product accumulated into zero, at (a, b): the sum over the 1024 contracted positions of
    row a of the left operand against column b of the right. -/
theorem qk_apply {φ₁ φ₂ : FTy} (l : FVec Ideal S512x1024 φ₁) (r : FVec Ideal S1024x1024 φ₂) (a : Fin 512) (b : Fin 1024) :
    matmul dot_S512x1024_S1024x1024_S512x1024_1_0_0_1_n_n none l r (constant S512x1024 .f32 0x00000000#32) (ix2 a b)
      = ∑ k : Fin 1024, l (ix2 a k) * r (ix2 k b) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 a b) ((contrEquiv1 dot_S512x1024_S1024x1024_S512x1024_1_0_0_1_n_n 1024 rfl rfl).symm k) = ix2 a k := funext fun d => Fin.ext (by
    match d with
    | ⟨0, _⟩ => exact qk_lhs0 _ _
    | ⟨1, _⟩ => exact (qk_lhs1 _ _).trans hk)
  have er : dot_S512x1024_S1024x1024_S512x1024_1_0_0_1_n_n.rhsIdx (ix2 a b) ((contrEquiv1 dot_S512x1024_S1024x1024_S512x1024_1_0_0_1_n_n 1024 rfl rfl).symm k) = ix2 k b := funext fun d => Fin.ext (by
    match d with
    | ⟨0, _⟩ => exact (qk_rhs0 _ _).trans hk
    | ⟨1, _⟩ => exact qk_rhs1 _ _)
  rw [el, er]

/-- The left operand's row coordinate is the output's row. -/
theorem sc_lhs0 (i : S512x256.Idx) (q : dot_S512x1024_S1024x256_S512x256_1_0_0_1_n_n.contr.Idx) : (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- The left operand's column coordinate is the contracted one. -/
theorem sc_lhs1 (i : S512x256.Idx) (q : dot_S512x1024_S1024x256_S512x256_1_0_0_1_n_n.contr.Idx) : (dot_S512x1024_S1024x256_S512x256_1_0_0_1_n_n.lhsIdx i q 1).val = (q ⟨0, by decide⟩).val :=
  dot_S512x1024_S1024x256_S512x256_1_0_0_1_n_n.lhsIdx_val_of_single rfl i q
/-- The right operand's row coordinate is the contracted one. -/
theorem sc_rhs0 (i : S512x256.Idx) (q : dot_S512x1024_S1024x256_S512x256_1_0_0_1_n_n.contr.Idx) : (dot_S512x1024_S1024x256_S512x256_1_0_0_1_n_n.rhsIdx i q 0).val = (q ⟨0, by decide⟩).val :=
  dot_S512x1024_S1024x256_S512x256_1_0_0_1_n_n.rhsIdx_val_of_single rfl i q
/-- The right operand's column coordinate is the output's column. -/
theorem sc_rhs1 (i : S512x256.Idx) (q : dot_S512x1024_S1024x256_S512x256_1_0_0_1_n_n.contr.Idx) : (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- A [512, 1024] × [1024, 256] product accumulated into zero, at (a, b): the sum over the 1024 contracted positions of
    row a of the left operand against column b of the right. -/
theorem sc_apply {φ₁ φ₂ : FTy} (l : FVec Ideal S512x1024 φ₁) (r : FVec Ideal S1024x256 φ₂) (a : Fin 512) (b : Fin 256) :
    matmul dot_S512x1024_S1024x256_S512x256_1_0_0_1_n_n none l r (constant S512x256 .f32 0x00000000#32) (ix2 a b)
      = ∑ k : Fin 1024, l (ix2 a k) * r (ix2 k b) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 a b) ((contrEquiv1 dot_S512x1024_S1024x256_S512x256_1_0_0_1_n_n 1024 rfl rfl).symm k) = ix2 a k := funext fun d => Fin.ext (by
    match d with
    | ⟨0, _⟩ => exact sc_lhs0 _ _
    | ⟨1, _⟩ => exact (sc_lhs1 _ _).trans hk)
  have er : dot_S512x1024_S1024x256_S512x256_1_0_0_1_n_n.rhsIdx (ix2 a b) ((contrEquiv1 dot_S512x1024_S1024x256_S512x256_1_0_0_1_n_n 1024 rfl rfl).symm k) = ix2 k b := funext fun d => Fin.ext (by
    match d with
    | ⟨0, _⟩ => exact (sc_rhs0 _ _).trans hk
    | ⟨1, _⟩ => exact sc_rhs1 _ _)
  rw [el, er]

/-- The left operand's row coordinate is the output's row. -/
theorem at_lhs0 (i : S512x1024.Idx) (q : dot_S512x256_S256x1024_S512x1024_1_0_0_1_n_n.contr.Idx) : (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
/-- The left operand's column coordinate is the contracted one. -/
theorem at_lhs1 (i : S512x1024.Idx) (q : dot_S512x256_S256x1024_S512x1024_1_0_0_1_n_n.contr.Idx) : (dot_S512x256_S256x1024_S512x1024_1_0_0_1_n_n.lhsIdx i q 1).val = (q ⟨0, by decide⟩).val :=
  dot_S512x256_S256x1024_S512x1024_1_0_0_1_n_n.lhsIdx_val_of_single rfl i q
/-- The right operand's row coordinate is the contracted one. -/
theorem at_rhs0 (i : S512x1024.Idx) (q : dot_S512x256_S256x1024_S512x1024_1_0_0_1_n_n.contr.Idx) : (dot_S512x256_S256x1024_S512x1024_1_0_0_1_n_n.rhsIdx i q 0).val = (q ⟨0, by decide⟩).val :=
  dot_S512x256_S256x1024_S512x1024_1_0_0_1_n_n.rhsIdx_val_of_single rfl i q
/-- The right operand's column coordinate is the output's column. -/
theorem at_rhs1 (i : S512x1024.Idx) (q : dot_S512x256_S256x1024_S512x1024_1_0_0_1_n_n.contr.Idx) : (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- A [512, 256] × [256, 1024] product accumulated into zero, at (a, b): the sum over the 256 contracted positions of
    row a of the left operand against column b of the right. -/
theorem at_apply {φ₁ φ₂ : FTy} (l : FVec Ideal S512x256 φ₁) (r : FVec Ideal S256x1024 φ₂) (a : Fin 512) (b : Fin 1024) :
    matmul dot_S512x256_S256x1024_S512x1024_1_0_0_1_n_n none l r (constant S512x1024 .f32 0x00000000#32) (ix2 a b)
      = ∑ k : Fin 256, l (ix2 a k) * r (ix2 k b) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 a b) ((contrEquiv1 dot_S512x256_S256x1024_S512x1024_1_0_0_1_n_n 256 rfl rfl).symm k) = ix2 a k := funext fun d => Fin.ext (by
    match d with
    | ⟨0, _⟩ => exact at_lhs0 _ _
    | ⟨1, _⟩ => exact (at_lhs1 _ _).trans hk)
  have er : dot_S512x256_S256x1024_S512x1024_1_0_0_1_n_n.rhsIdx (ix2 a b) ((contrEquiv1 dot_S512x256_S256x1024_S512x1024_1_0_0_1_n_n 256 rfl rfl).symm k) = ix2 k b := funext fun d => Fin.ext (by
    match d with
    | ⟨0, _⟩ => exact (at_rhs0 _ _).trans hk
    | ⟨1, _⟩ => exact at_rhs1 _ _)
  rw [el, er]

end Cert.Attn.KernelDots

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«101912_j82952998355251_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.AttnRow.lean ====
/-
  One row of attention over a fixed memory bank, written as plain finite sums on the extended reals.

  For a row `xr` of 1024 entries:
    queries   q f = (∑ e, xr e · wq e f) + bq f
    scores    s m = ∑ e, q e · memT e m
    weights   w   = the softmax of the 256 scores (maximum taken as a fold of `max` from −∞, then
                    exp (s m − M) / ∑ exp (s c − M))
    attended  a e = ∑ m, w m · mem m e
    projected p f = ∑ e, a e · wo e f
    result        = (p f + bo f) + xr f      (bias, then the residual)

  The weight tables enter as functions of two coordinates with the CONTRACTED coordinate first, so that a program that holds
  a table transposed and one that contracts the table's second axis are read through the same functions. Every sum runs over
  the contracted coordinate in its natural order and every product has the data on the left and the table on the right.
-/
import Idealize.ShloMosaic.PureOps.Ideal.Laws
import Idealize.ShloMosaic.Lib.ValueIdx
import proofs.«101912_j82952998355251_1_alg».proof.Proof.LibSoftmaxRows

noncomputable section

open scoped BigOperators

namespace Cert.Attn

open Idealize.ShloMosaic Idealize.ShloMosaic.SoftmaxRows

/-- The value of the f32 word of −∞: where a row's maximum starts. -/
abbrev negInf : EReal := Ideal.ofBits .f32 0xFF800000#32

/-- The query projection of a row, with its bias. -/
def queries (xr : Fin 1024 → EReal) (wq : Fin 1024 → Fin 1024 → EReal) (bq : Fin 1024 → EReal) (f : Fin 1024) : EReal :=
  (∑ e : Fin 1024, xr e * wq e f) + bq f

/-- The scores of a query row against the 256 memory slots. -/
def scores (qv : Fin 1024 → EReal) (memT : Fin 1024 → Fin 256 → EReal) (s : Fin 256) : EReal :=
  ∑ e : Fin 1024, qv e * memT e s

/-- The weighted sum of the memory slots. -/
def attended (w : Fin 256 → EReal) (mem : Fin 256 → Fin 1024 → EReal) (e : Fin 1024) : EReal :=
  ∑ s : Fin 256, w s * mem s e

/-- The output projection, without its bias. -/
def project (a : Fin 1024 → EReal) (wo : Fin 1024 → Fin 1024 → EReal) (f : Fin 1024) : EReal :=
  ∑ e : Fin 1024, a e * wo e f

/-- The row after the output projection: queries, scores, softmax, attended, projected. -/
def rowMid (xr : Fin 1024 → EReal) (wq : Fin 1024 → Fin 1024 → EReal) (bq : Fin 1024 → EReal)
    (memT : Fin 1024 → Fin 256 → EReal) (mem : Fin 256 → Fin 1024 → EReal) (wo : Fin 1024 → Fin 1024 → EReal)
    (f : Fin 1024) : EReal :=
  project (attended (softmaxAt (scores (queries xr wq bq) memT) negInf) mem) wo f

/-- The whole row: the projection, its bias, and the residual. -/
def rowOut (xr : Fin 1024 → EReal) (wq : Fin 1024 → Fin 1024 → EReal) (bq : Fin 1024 → EReal)
    (memT : Fin 1024 → Fin 256 → EReal) (mem : Fin 256 → Fin 1024 → EReal) (wo : Fin 1024 → Fin 1024 → EReal)
    (bo : Fin 1024 → EReal) (f : Fin 1024) : EReal :=
  (rowMid xr wq bq memT mem wo f + bo f) + xr f

end Cert.Attn

end
-- ==== Proof.KernelStages.lean ====
/-
  The kernel body's arithmetic, cut where its mathematics cuts, and each piece read at an index at the ideal values.

  The body's one computed value (the skeleton's third payload) is, in order:
    q = x · Wqᵀ + bq          (`qStage`: a product into zero, plus the bias row broadcast down the 512 rows)
    s = q · memᵀ              (`sStage`)
    w = softmax of s by rows  (`wStage`: the row maximum — taken once more against −∞, which changes nothing —, cast to a
                               column and broadcast back, subtracted; the exponential; the row sum, cast and broadcast; the quotient)
    a = w · mem               (`aStage`)
    p = a · Woᵀ               (`oStage`)
  with a change of float format in front of every product, which at the ideal values is the identity. `pay3_eq` says the
  payload IS that composition; the `_apply` lemmas read each stage at (r, ·) from its operand's row r; `pay3_apply` chains
  them into `Attn.rowMid` of row r of the block.
-/
import proofs.«101912_j82952998355251_1_alg».proof.Proof.Gen.KernelIdeal.Skeleton
import proofs.«101912_j82952998355251_1_alg».proof.Proof.KernelDots
import proofs.«101912_j82952998355251_1_alg».proof.Proof.AttnRow
import Idealize.ShloMosaic.Lib.Pipeline.Value

noncomputable section

open scoped BigOperators

namespace Cert.Attn.KernelStages

open Cert.KernelIdeal Cert.KernelIdeal.Gen Idealize.ShloMosaic Idealize.ShloMosaic.ValueIdx
open Idealize.ShloMosaic.SoftmaxRows Cert.Attn Cert.Attn.KernelDots

/-! ## The stages -/

/-- The query projection of the block, with its bias. -/
def qStage (P0 : Vec Ideal S1x512x1024 .f32) (P1 : Vec Ideal S1024x1024 .bf16) (P2 : Vec Ideal S1x1024 .f32) : FVec Ideal S512x1024 .f32 :=
  addf (matmul dot_S512x1024_S1024x1024_S512x1024_1_0_0_1_n_n none (truncf .bf16 (k0_pay2 P0) bitsLt_bf16_f32) (shapeCast S1024x1024 P1 shapeCasts_S1024x1024_S1024x1024 : FVec Ideal S1024x1024 .bf16) (constant S512x1024 .f32 0x00000000#32))
    (broadcastTo S512x1024 (shapeCast S1x1024 P2 shapeCasts_S1x1024_S1x1024 : FVec Ideal S1x1024 .f32) broadcasts_S1x1024_S512x1024)

/-- The scores against the transposed memory bank. -/
def sStage (q : FVec Ideal S512x1024 .f32) (P3 : Vec Ideal S1024x256 .bf16) : FVec Ideal S512x256 .f32 :=
  matmul dot_S512x1024_S1024x256_S512x256_1_0_0_1_n_n none (truncf .bf16 q bitsLt_bf16_f32) (shapeCast S1024x256 P3 shapeCasts_S1024x256_S1024x256 : FVec Ideal S1024x256 .bf16) (constant S512x256 .f32 0x00000000#32)

/-- Each row's maximum, broadcast back along the row. -/
def mStage (s : FVec Ideal S512x256 .f32) : FVec Ideal S512x256 .f32 :=
  broadcastTo S512x256 (shapeCast S512x1 (maximumf (broadcast S512 (Scalar.ofBits .f32 0xFF800000#32)) (multiReduction .maximumf [1] S512 s 0xFF800000#32 reduces_S512x256_S512 (.inl rfl) rfl)) shapeCasts_S512_S512x1) broadcasts_S512x1_S512x256

/-- The exponentials of the scores less their row's maximum. -/
def eStage (s : FVec Ideal S512x256 .f32) : FVec Ideal S512x256 .f32 :=
  exp (subf s (mStage s))

/-- The softmax weights. -/
def wStage (s : FVec Ideal S512x256 .f32) : FVec Ideal S512x256 .f32 :=
  divf (eStage s) (broadcastTo S512x256 (shapeCast S512x1 (multiReduction .add [1] S512 (eStage s) 0x00000000#32 reduces_S512x256_S512 (.inl rfl) rfl) shapeCasts_S512_S512x1) broadcasts_S512x1_S512x256)

/-- The weighted sum of the memory slots. -/
def aStage (w : FVec Ideal S512x256 .f32) (P4 : Vec Ideal S256x1024 .bf16) : FVec Ideal S512x1024 .f32 :=
  matmul dot_S512x256_S256x1024_S512x1024_1_0_0_1_n_n none (truncf .bf16 w bitsLt_bf16_f32) (shapeCast S256x1024 P4 shapeCasts_S256x1024_S256x1024 : FVec Ideal S256x1024 .bf16) (constant S512x1024 .f32 0x00000000#32)

/-- The output projection. -/
def oStage (a : FVec Ideal S512x1024 .f32) (P5 : Vec Ideal S1024x1024 .bf16) : FVec Ideal S512x1024 .f32 :=
  matmul dot_S512x1024_S1024x1024_S512x1024_1_0_0_1_n_n none (truncf .bf16 a bitsLt_bf16_f32) (shapeCast S1024x1024 P5 shapeCasts_S1024x1024_S1024x1024 : FVec Ideal S1024x1024 .bf16) (constant S512x1024 .f32 0x00000000#32)

/-- The body's computed value is the composition of the stages. -/
theorem pay3_eq (P0 : Vec Ideal S1x512x1024 .f32) (P1 : Vec Ideal S1024x1024 .bf16) (P2 : Vec Ideal S1x1024 .f32)
    (P3 : Vec Ideal S1024x256 .bf16) (P4 : Vec Ideal S256x1024 .bf16) (P5 : Vec Ideal S1024x1024 .bf16) :
    k0_pay3 (F := Ideal) P0 P1 P2 P3 P4 P5 = oStage (aStage (wStage (sStage (qStage P0 P1 P2) P3)) P4) P5 := rfl

/-! ## Each stage at an index -/

/-- The block with its leading unit axis dropped: entry (r, e) is entry (0, r, e). -/
theorem pay2_apply (P0 : Vec Ideal S1x512x1024 .f32) (r : Fin 512) (e : Fin 1024) :
    k0_pay2 (F := Ideal) P0 (ix2 r e) = P0 (ix3 0 r e) := by
  unfold k0_pay2
  exact shapeCast_apply P0 shapeCasts_S1x512x1024_S512x1024 (ix2 r e) (ix3 0 r e) (by
    rw [Shape.rowMajor_val_three, Shape.rowMajor_val_two]
    show (0 * 512 + r.val) * 1024 + e.val = r.val * 1024 + e.val
    omega)

/-- A [1, 1024] row broadcast down 512 rows: entry (r, f) is the row's entry (0, f). -/
theorem bias_apply (P : Vec Ideal S1x1024 .f32) (r : Fin 512) (f : Fin 1024) :
    broadcastTo S512x1024 (shapeCast S1x1024 P shapeCasts_S1x1024_S1x1024 : FVec Ideal S1x1024 .f32) broadcasts_S1x1024_S512x1024 (ix2 r f) = P (ix2 0 f) := by
  refine (broadcastTo_apply _ broadcasts_S1x1024_S512x1024 (ix2 r f) (ix2 0 f) (fun d => by
    match d with
    | ⟨0, _⟩ => show 0 = if (1 : Nat) = 1 then 0 else r.val; rw [if_pos rfl]
    | ⟨1, _⟩ => show f.val = if (1024 : Nat) = 1 then 0 else f.val; rw [if_neg (by decide)])).trans ?_
  exact congrFun (shapeCast_self P shapeCasts_S1x1024_S1x1024) (ix2 0 f)

/-- The queries of row r of the block. -/
theorem qStage_apply (P0 : Vec Ideal S1x512x1024 .f32) (P1 : Vec Ideal S1024x1024 .bf16) (P2 : Vec Ideal S1x1024 .f32)
    (r : Fin 512) (f : Fin 1024) :
    qStage P0 P1 P2 (ix2 r f) = queries (fun e => P0 (ix3 0 r e)) (fun e f => P1 (ix2 e f)) (fun f => P2 (ix2 0 f)) f := by
  have h1 : matmul dot_S512x1024_S1024x1024_S512x1024_1_0_0_1_n_n none (truncf .bf16 (k0_pay2 P0) bitsLt_bf16_f32) (shapeCast S1024x1024 P1 shapeCasts_S1024x1024_S1024x1024 : FVec Ideal S1024x1024 .bf16) (constant S512x1024 .f32 0x00000000#32) (ix2 r f)
      = ∑ e : Fin 1024, P0 (ix3 0 r e) * P1 (ix2 e f) :=
    (qk_apply _ _ r f).trans (Finset.sum_congr rfl fun e _ =>
      congrArg₂ (· * ·) (pay2_apply P0 r e) (congrFun (shapeCast_self P1 shapeCasts_S1024x1024_S1024x1024) (ix2 e f)))
  unfold qStage queries
  rw [addf_apply, h1, bias_apply]

/-- The scores of row r. -/
theorem sStage_apply (q : FVec Ideal S512x1024 .f32) (P3 : Vec Ideal S1024x256 .bf16) (r : Fin 512) (s : Fin 256) :
    sStage q P3 (ix2 r s) = scores (fun e => q (ix2 r e)) (fun e s => P3 (ix2 e s)) s := by
  unfold sStage scores
  exact (sc_apply _ _ r s).trans (Finset.sum_congr rfl fun e _ =>
    congrArg₂ (· * ·) rfl (congrFun (shapeCast_self P3 shapeCasts_S1024x256_S1024x256) (ix2 e s)))

/-- The softmax weights of row r: the row maximum is the fold of `max` from −∞ over the row (the further maximum with −∞
    returns it), and the weight at j is exp (s j − M) over the row's sum of those. -/
theorem wStage_apply (s : FVec Ideal S512x256 .f32) (r : Fin 512) (j : Fin 256) :
    wStage s (ix2 r j) = softmaxAt (fun c => s (ix2 r c)) negInf j := by
  have hM : ∀ c : Fin 256, mStage s (ix2 r c) = (Finset.univ : Finset (Fin 256)).fold max negInf (fun c => s (ix2 r c)) := fun c =>
    (Keepdims.bcast_col_apply _ broadcasts_S512x1_S512x256 r c).trans ((Keepdims.cast_col_apply _ shapeCasts_S512_S512x1 r 0).trans
      ((congrArg (max negInf) (rowMax2_apply s 0xFF800000#32 reduces_S512x256_S512 (.inl rfl) rfl r)).trans (max_fold_max_self _ _ _)))
  have hE : ∀ c : Fin 256, eStage s (ix2 r c)
      = Ideal.exp (s (ix2 r c) - (Finset.univ : Finset (Fin 256)).fold max negInf (fun c => s (ix2 r c))) := fun c =>
    congrArg (fun m => Ideal.exp (s (ix2 r c) - m)) (hM c)
  have hS : broadcastTo S512x256 (shapeCast S512x1 (multiReduction .add [1] S512 (eStage s) 0x00000000#32 reduces_S512x256_S512 (.inl rfl) rfl) shapeCasts_S512_S512x1) broadcasts_S512x1_S512x256 (ix2 r j)
      = ∑ c : Fin 256, Ideal.exp (s (ix2 r c) - (Finset.univ : Finset (Fin 256)).fold max negInf (fun c => s (ix2 r c))) :=
    (Keepdims.bcast_col_apply _ broadcasts_S512x1_S512x256 r j).trans ((Keepdims.cast_col_apply _ shapeCasts_S512_S512x1 r 0).trans
      ((Keepdims.rowSum2_apply _ 0x00000000#32 reduces_S512x256_S512 (.inl rfl) rfl r).trans (Finset.sum_congr rfl fun c _ => hE c)))
  show Ideal.div (eStage s (ix2 r j)) _ = _
  unfold softmaxAt
  exact congrArg₂ Ideal.div (hE j) hS

/-- The attended row r. -/
theorem aStage_apply (w : FVec Ideal S512x256 .f32) (P4 : Vec Ideal S256x1024 .bf16) (r : Fin 512) (e : Fin 1024) :
    aStage w P4 (ix2 r e) = attended (fun s => w (ix2 r s)) (fun s e => P4 (ix2 s e)) e := by
  unfold aStage attended
  exact (at_apply _ _ r e).trans (Finset.sum_congr rfl fun s _ =>
    congrArg₂ (· * ·) rfl (congrFun (shapeCast_self P4 shapeCasts_S256x1024_S256x1024) (ix2 s e)))

/-- The projected row r. -/
theorem oStage_apply (a : FVec Ideal S512x1024 .f32) (P5 : Vec Ideal S1024x1024 .bf16) (r : Fin 512) (f : Fin 1024) :
    oStage a P5 (ix2 r f) = project (fun e => a (ix2 r e)) (fun e f => P5 (ix2 e f)) f := by
  unfold oStage project
  exact (qk_apply _ _ r f).trans (Finset.sum_congr rfl fun e _ =>
    congrArg₂ (· * ·) rfl (congrFun (shapeCast_self P5 shapeCasts_S1024x1024_S1024x1024) (ix2 e f)))

/-! ## The body's computed value at an index -/

/-- Entry (r, f) of the body's computed value is the projected attention row of row r of the x block, the tables read
    as the kernel holds them (contracted coordinate first). -/
theorem pay3_apply (P0 : Vec Ideal S1x512x1024 .f32) (P1 : Vec Ideal S1024x1024 .bf16) (P2 : Vec Ideal S1x1024 .f32)
    (P3 : Vec Ideal S1024x256 .bf16) (P4 : Vec Ideal S256x1024 .bf16) (P5 : Vec Ideal S1024x1024 .bf16) (r : Fin 512) (f : Fin 1024) :
    k0_pay3 (F := Ideal) P0 P1 P2 P3 P4 P5 (ix2 r f)
      = rowMid (fun e => P0 (ix3 0 r e)) (fun e f => P1 (ix2 e f)) (fun f => P2 (ix2 0 f)) (fun e s => P3 (ix2 e s))
          (fun s e => P4 (ix2 s e)) (fun e f => P5 (ix2 e f)) f := by
  rw [pay3_eq]
  refine (oStage_apply _ P5 r f).trans ?_
  unfold rowMid
  refine congrArg (fun a => project a (fun e f => P5 (ix2 e f)) f) (funext fun e => ?_)
  refine (aStage_apply _ P4 r e).trans ?_
  refine congrArg (fun w => attended w (fun s e => P4 (ix2 s e)) e) (funext fun s => ?_)
  refine (wStage_apply _ r s).trans ?_
  refine congrArg (fun row => softmaxAt row negInf s) (funext fun c => ?_)
  refine (sStage_apply _ P3 r c).trans ?_
  refine congrArg (fun q => scores q (fun e s => P3 (ix2 e s)) c) (funext fun e' => ?_)
  exact qStage_apply P0 P1 P2 r e'

end Cert.Attn.KernelStages

end
-- ==== Proof.KernelArrays.lean ====
/-
  The arrays the kernel's region finds, read at an index at the ideal values.

  Before the region the host transposes Wq, Wo and the memory bank and changes their float format (the identity at the
  ideal values), and views each bias [1024] as a row [1, 1024]. So what the region finds is:
    the transposed Wq at (e, f)      = Wq at (f, e)        the transposed Wo likewise
    the memory bank at (s, e)        = the argument there  its transpose at (e, s) = the argument at (s, e)
    each bias row at (0, f)          = the bias at f
-/
import proofs.«101912_j82952998355251_1_alg».proof.Proof.Gen.KernelIdeal.Frame
import Idealize.ShloMosaic.Lib.Pipeline.Value
import Idealize.ShloMosaic.Lib.ValueIdx
import Idealize.ShloMosaic.Lib.StableHlo.Run

noncomputable section

namespace Cert.Attn.KernelArrays

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The host operations' terms -/

theorem V_v1 (c : Dev nD) : @Eq (S1024x1024.Idx → EReal) (V m c main_v1)
    (truncf (F := Ideal) .bf16 (transpose S1024x1024 [1, 0] (m ((c : Thread nD τ).loc main_arg2)) transposes_S1024x1024_S1024x1024_1_0) bitsLt_bf16_f32) := by
  dsimp only [Gen.V, Gen.hostOps0]; after_results

theorem V_v3 (c : Dev nD) : @Eq (S1024x1024.Idx → EReal) (V m c main_v3)
    (truncf (F := Ideal) .bf16 (transpose S1024x1024 [1, 0] (m ((c : Thread nD τ).loc main_arg4)) transposes_S1024x1024_S1024x1024_1_0) bitsLt_bf16_f32) := by
  dsimp only [Gen.V, Gen.hostOps0]; after_results

theorem V_v4 (c : Dev nD) : @Eq (S256x1024.Idx → EReal) (V m c main_v4)
    (truncf (F := Ideal) .bf16 (m ((c : Thread nD τ).loc main_arg1)) bitsLt_bf16_f32) := by
  dsimp only [Gen.V, Gen.hostOps0]; after_results

theorem V_v6 (c : Dev nD) : @Eq (S1024x256.Idx → EReal) (V m c main_v6)
    (truncf (F := Ideal) .bf16 (transpose S1024x256 [1, 0] (m ((c : Thread nD τ).loc main_arg1)) transposes_S256x1024_S1024x256_1_0) bitsLt_bf16_f32) := by
  dsimp only [Gen.V, Gen.hostOps0]; after_results

theorem V_v7 (c : Dev nD) : @Eq (S1x1024.Idx → EReal) (V m c main_v7)
    (shapeCast S1x1024 (m ((c : Thread nD τ).loc main_arg3)) shapeCasts_S1024_S1x1024) := by
  dsimp only [Gen.V, Gen.hostOps0]; after_results; rfl

theorem V_v8 (c : Dev nD) : @Eq (S1x1024.Idx → EReal) (V m c main_v8)
    (shapeCast S1x1024 (m ((c : Thread nD τ).loc main_arg5)) shapeCasts_S1024_S1x1024) := by
  dsimp only [Gen.V, Gen.hostOps0]; after_results; rfl

/-! ## At an index -/

/-- A transposed square table at (e, f) is the table at (f, e). -/
theorem transpose_sq_apply (X : S1024x1024.Idx → EReal) (e f : Fin 1024) :
    transpose S1024x1024 [1, 0] X transposes_S1024x1024_S1024x1024_1_0 (ix2 e f) = X (ix2 f e) :=
  transpose_apply [1, 0] X transposes_S1024x1024_S1024x1024_1_0 (ix2 e f) (ix2 f e) (fun b => by
    match b with | ⟨0, _⟩ => rfl | ⟨1, _⟩ => rfl)

/-- The transposed Wq at (e, f) is Wq at (f, e). -/
theorem V_v1_apply (c : Dev nD) (e f : Fin 1024) :
    (V m c main_v1 : S1024x1024.Idx → EReal) (ix2 e f) = ((m ((c : Thread nD τ).loc main_arg2)) : S1024x1024.Idx → EReal) (ix2 f e) := by
  rw [V_v1]; exact transpose_sq_apply _ e f

/-- The transposed Wo at (e, f) is Wo at (f, e). -/
theorem V_v3_apply (c : Dev nD) (e f : Fin 1024) :
    (V m c main_v3 : S1024x1024.Idx → EReal) (ix2 e f) = ((m ((c : Thread nD τ).loc main_arg4)) : S1024x1024.Idx → EReal) (ix2 f e) := by
  rw [V_v3]; exact transpose_sq_apply _ e f

/-- The memory bank the region finds is the argument. -/
theorem V_v4_apply (c : Dev nD) (s : Fin 256) (e : Fin 1024) :
    (V m c main_v4 : S256x1024.Idx → EReal) (ix2 s e) = ((m ((c : Thread nD τ).loc main_arg1)) : S256x1024.Idx → EReal) (ix2 s e) := by
  rw [V_v4]; rfl

/-- The transposed memory bank at (e, s) is the argument at (s, e). -/
theorem V_v6_apply (c : Dev nD) (e : Fin 1024) (s : Fin 256) :
    (V m c main_v6 : S1024x256.Idx → EReal) (ix2 e s) = ((m ((c : Thread nD τ).loc main_arg1)) : S256x1024.Idx → EReal) (ix2 s e) := by
  rw [V_v6]
  exact transpose_apply [1, 0] _ transposes_S256x1024_S1024x256_1_0 (ix2 e s) (ix2 s e) (fun b => by
    match b with | ⟨0, _⟩ => rfl | ⟨1, _⟩ => rfl)

/-- A bias viewed as a row: entry (0, f) is entry f. -/
theorem row_apply (X : S1024.Idx → EReal) (z : Fin 1) (f : Fin 1024) :
    shapeCast S1x1024 X shapeCasts_S1024_S1x1024 (ix2 z f) = X (ix1 f) :=
  shapeCast_apply X shapeCasts_S1024_S1x1024 (ix2 z f) (ix1 f) (by
    rw [Shape.rowMajor_val_one, Shape.rowMajor_val_two]
    show f.val = z.val * 1024 + f.val
    have := z.isLt; omega)

/-- The query bias row at (0, f) is bq at f. -/
theorem V_v7_apply (c : Dev nD) (z : Fin 1) (f : Fin 1024) :
    (V m c main_v7 : S1x1024.Idx → EReal) (ix2 z f) = ((m ((c : Thread nD τ).loc main_arg3)) : S1024.Idx → EReal) (ix1 f) := by
  rw [V_v7]; exact row_apply _ z f

/-- The output bias row at (0, f) is bo at f. -/
theorem V_v8_apply (c : Dev nD) (z : Fin 1) (f : Fin 1024) :
    (V m c main_v8 : S1x1024.Idx → EReal) (ix2 z f) = ((m ((c : Thread nD τ).loc main_arg5)) : S1024.Idx → EReal) (ix1 f) := by
  rw [V_v8]; exact row_apply _ z f

end Cert.Attn.KernelArrays

end
-- ==== Proof.AttnArray.lean ====
/-
  The result array as ONE function of the six argument arrays: entry (b, q, f) is the attention row of row (b, q) of x at f,
  with Wq and Wo read transposed (their second axis contracted), the memory bank read transposed for the scores and as it is
  for the attended sum, and the two biases read along their one axis.
-/
import proofs.«101912_j82952998355251_1_alg».proof.Proof.AttnRow

noncomputable section

namespace Cert.Attn

open Idealize.ShloMosaic Idealize.ShloMosaic.ValueIdx

/-- The result array of the arguments x, memory bank, Wq, bq, Wo, bo. -/
def G (x : (⟨3, ![8, 4096, 1024]⟩ : Shape).Idx → EReal) (mem : (⟨2, ![256, 1024]⟩ : Shape).Idx → EReal)
    (wq : (⟨2, ![1024, 1024]⟩ : Shape).Idx → EReal) (bq : (⟨1, ![1024]⟩ : Shape).Idx → EReal)
    (wo : (⟨2, ![1024, 1024]⟩ : Shape).Idx → EReal) (bo : (⟨1, ![1024]⟩ : Shape).Idx → EReal) :
    (⟨3, ![8, 4096, 1024]⟩ : Shape).Idx → EReal := fun i =>
  rowOut (fun e => x (ix3 (i 0) (i 1) e)) (fun e f => wq (ix2 f e)) (fun f => bq (ix1 f)) (fun e s => mem (ix2 s e))
    (fun s e => mem (ix2 s e)) (fun e f => wo (ix2 f e)) (fun f => bo (ix1 f)) (i 2)

/-- At an index given by its coordinates. -/
theorem G_apply (x : (⟨3, ![8, 4096, 1024]⟩ : Shape).Idx → EReal) (mem : (⟨2, ![256, 1024]⟩ : Shape).Idx → EReal)
    (wq : (⟨2, ![1024, 1024]⟩ : Shape).Idx → EReal) (bq : (⟨1, ![1024]⟩ : Shape).Idx → EReal)
    (wo : (⟨2, ![1024, 1024]⟩ : Shape).Idx → EReal) (bo : (⟨1, ![1024]⟩ : Shape).Idx → EReal)
    (b : Fin 8) (q : Fin 4096) (f : Fin 1024) :
    G x mem wq bq wo bo (ix3 b q f)
      = rowOut (fun e => x (ix3 b q e)) (fun e f => wq (ix2 f e)) (fun f => bq (ix1 f)) (fun e s => mem (ix2 s e))
          (fun s e => mem (ix2 s e)) (fun e f => wo (ix2 f e)) (fun f => bo (ix1 f)) f := rfl

/-- Two rows agree when their data and tables agree entry by entry. -/
theorem rowOut_congr {xr xr' : Fin 1024 → EReal} {wq wq' : Fin 1024 → Fin 1024 → EReal} {bq bq' : Fin 1024 → EReal}
    {memT memT' : Fin 1024 → Fin 256 → EReal} {mem mem' : Fin 256 → Fin 1024 → EReal} {wo wo' : Fin 1024 → Fin 1024 → EReal}
    {bo bo' : Fin 1024 → EReal} (h0 : ∀ e, xr e = xr' e) (h1 : ∀ e f, wq e f = wq' e f) (h2 : ∀ f, bq f = bq' f)
    (h3 : ∀ e s, memT e s = memT' e s) (h4 : ∀ s e, mem s e = mem' s e) (h5 : ∀ e f, wo e f = wo' e f)
    (h6 : ∀ f, bo f = bo' f) (f : Fin 1024) :
    rowOut xr wq bq memT mem wo bo f = rowOut xr' wq' bq' memT' mem' wo' bo' f := by
  obtain rfl : xr = xr' := funext h0
  obtain rfl : wq = wq' := funext fun e => funext (h1 e)
  obtain rfl : bq = bq' := funext h2
  obtain rfl : memT = memT' := funext fun e => funext (h3 e)
  obtain rfl : mem = mem' := funext fun s => funext (h4 s)
  obtain rfl : wo = wo' := funext fun e => funext (h5 e)
  obtain rfl : bo = bo' := funext h6
  rfl

end Cert.Attn

end
-- ==== Proof.KernelBlocks.lean ====
/-
  From the blocks the grid points write back to the kernel's result array, at the ideal values.

  The grid is 8 × 8: point (b, j) stages rows 512·j … 512·j + 511 of batch b of x, the six resident tables whole, and writes
  back the same rows of batch b of the result. What it writes at (r, f) of its block is the attention row of row
  (b, 512·j + r) of x at f (`out7_apply`, over the body's computed value read at an index), with the tables as the region
  finds them (`KernelArrays`); so every point writes a block of ONE array, `Attn.G` of the arguments (`flushed_eq`), the 64
  blocks cover the array (`cover`), and the array after the run is `Attn.G` (`final`, `run`).
-/
import proofs.«101912_j82952998355251_1_alg».proof.Proof.Gen.KernelIdeal.Value
import proofs.«101912_j82952998355251_1_alg».proof.Proof.KernelStages
import proofs.«101912_j82952998355251_1_alg».proof.Proof.KernelArrays
import proofs.«101912_j82952998355251_1_alg».proof.Proof.AttnArray

noncomputable section

namespace Cert.Attn.KernelBlocks

open Cert.KernelIdeal Cert.KernelIdeal.Gen Idealize.ShloMosaic Idealize.ShloMosaic.TcCoe Idealize.ShloMosaic.ValueIdx
open Idealize.SL.Sem
open Idealize.ShloMosaic.Pipeline (Dat)
open Cert.Attn Cert.Attn.KernelStages Cert.Attn.KernelArrays

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output block, at an index -/

/-- Entry (0, r, f) of the output block the body leaves is the attention row of row r of the x block at f, the tables
    read from the staged blocks (contracted coordinate first), the bias rows at (0, ·). -/
theorem out7_apply (x0 : Vec Ideal S1x512x1024 .f32) (x1 : Vec Ideal S1024x1024 .bf16) (x2 : Vec Ideal S1x1024 .f32)
    (x3 : Vec Ideal S1024x1024 .bf16) (x4 : Vec Ideal S1x1024 .f32) (x5 : Vec Ideal S256x1024 .bf16) (x6 : Vec Ideal S1024x256 .bf16)
    (z : Fin 1) (r : Fin 512) (f : Fin 1024) :
    out0_7 x0 x1 x2 x3 x4 x5 x6 (ix3 z r f)
      = rowOut (fun e => x0 (ix3 0 r e)) (fun e f => x1 (ix2 e f)) (fun f => x2 (ix2 0 f)) (fun e s => x6 (ix2 e s))
          (fun s e => x5 (ix2 s e)) (fun e f => x3 (ix2 e f)) (fun f => x4 (ix2 0 f)) f := by
  unfold out0_7
  rw [Cert.KernelIdeal.Value.canon7_eq]
  simp only [View.ld_unit_zero (S := S1x512x1024) hz3, View.ld_unit_zero (S := S1024x1024) hz2,
    View.ld_unit_zero (S := S1x1024) hz2, View.ld_unit_zero (S := S1024x256) hz2, View.ld_unit_zero (S := S256x1024) hz2]
  have e0 : Cert.KernelIdeal.Value.ix7_0 (ix3 z r f) = ix2 r f := funext fun a => Fin.ext (by
    match a with | ⟨0, _⟩ => rfl | ⟨1, _⟩ => rfl)
  have e1 : Cert.KernelIdeal.Value.ix7_1 (ix3 z r f) = ix2 0 f := funext fun a => Fin.ext (by
    match a with | ⟨0, _⟩ => rfl | ⟨1, _⟩ => rfl)
  have e2 : Cert.KernelIdeal.Value.ix7_2 (ix3 z r f) = ix3 0 r f := funext fun a => Fin.ext (by
    match a with | ⟨0, _⟩ => rfl | ⟨1, _⟩ => rfl | ⟨2, _⟩ => rfl)
  show (k0_pay3 (F := Ideal) x0 x1 x2 x6 x5 x3 (Cert.KernelIdeal.Value.ix7_0 (ix3 z r f)) + x4 (Cert.KernelIdeal.Value.ix7_1 (ix3 z r f)))
      + x0 (Cert.KernelIdeal.Value.ix7_2 (ix3 z r f)) = _
  rw [e0, e1, e2, pay3_apply]
  rfl

/-! ## The printed index maps, decided over the 64 points -/

/-- The x window moves with the output window; both stay at lane block 0; the output's batch and row-block indices are
    below 8. -/
theorem idx_moving : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_7.index t (0 : Fin 3) ≤ 7 ∧ win0_7.index t (1 : Fin 3) ≤ 7 :=
  (by decide +kernel : ∀ t : Fin grid0.N, _)

/-- The six resident windows stay at block (0, 0). -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Every (batch, row block) is some point's. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-! ## The staged blocks, as entries of the arguments -/

/-- Row r of the x block at point t is row (b, q) of x, where b is the point's batch and q = 512 · its row block + r. -/
theorem iblk0_apply (c : Dev nD) (t : Fin cfg0.N) (r : Fin 512) (e : Fin 1024) (b : Fin 8) (q : Fin 4096)
    (hb : b.val = win0_7.index t (0 : Fin 3)) (hq : q.val = win0_7.index t (1 : Fin 3) * 512 + r.val) :
    (iblk m c 0 t : Vec Ideal S1x512x1024 .f32) (ix3 0 r e) = ((m ((c : Thread nD τ).loc main_arg0)) : S8x4096x1024.Idx → EReal) (ix3 b q e) := by
  obtain ⟨e0, e1, e2, -, -, -⟩ := idx_moving t
  unfold iblk
  rw [View.read_apply]
  show V m c main_arg0 (((cfg0.win 0).blk t).view.emb (ix3 0 r e)) = _
  rw [V_main_arg0]
  refine congrArg ((m ((c : Thread nD τ).loc main_arg0)) : S8x4096x1024.Idx → EReal) (funext fun d => Fin.ext ?_)
  match d with
  | ⟨0, _⟩ => show win0_0.index t (0 : Fin 3) * 1 + 1 * 0 = b.val; omega
  | ⟨1, _⟩ => show win0_0.index t (1 : Fin 3) * 512 + 1 * r.val = q.val; omega
  | ⟨2, _⟩ => show win0_0.index t (2 : Fin 3) * 1024 + 1 * e.val = e.val; rw [e2]; omega

/-- The staged Wq table at (e, f) is Wq at (f, e). -/
theorem iblk1_apply (c : Dev nD) (t : Fin cfg0.N) (e : Fin 1024) (f : Fin 1024) :
    (iblk m c 1 t : Vec Ideal S1024x1024 .bf16) (ix2 e f) = ((m ((c : Thread nD τ).loc main_arg2)) : S1024x1024.Idx → EReal) (ix2 f e) := by
  obtain ⟨h1, h2, h3, h4, h5, h6⟩ := idx_resident t
  unfold iblk
  rw [View.read_apply]
  show V m c main_v1 (((cfg0.win 1).blk t).view.emb (ix2 e f)) = _
  have hemb : ((cfg0.win 1).blk t).view.emb (ix2 e f) = ix2 e f := funext fun d => Fin.ext (by
    match d with
    | ⟨0, _⟩ => show win0_1.index t (0 : Fin 2) * 1024 + 1 * e.val = e.val; rw [h1.1]; omega
    | ⟨1, _⟩ => show win0_1.index t (1 : Fin 2) * 1024 + 1 * f.val = f.val; rw [h1.2]; omega)
  rw [hemb]
  exact V_v1_apply m c e f

/-- The staged query bias row at (0, f) is bq at f. -/
theorem iblk2_apply (c : Dev nD) (t : Fin cfg0.N) (z : Fin 1) (f : Fin 1024) :
    (iblk m c 2 t : Vec Ideal S1x1024 .f32) (ix2 z f) = ((m ((c : Thread nD τ).loc main_arg3)) : S1024.Idx → EReal) (ix1 f) := by
  obtain ⟨h1, h2, h3, h4, h5, h6⟩ := idx_resident t
  unfold iblk
  rw [View.read_apply]
  show V m c main_v7 (((cfg0.win 2).blk t).view.emb (ix2 z f)) = _
  have hemb : ((cfg0.win 2).blk t).view.emb (ix2 z f) = ix2 z f := funext fun d => Fin.ext (by
    match d with
    | ⟨0, _⟩ => show win0_2.index t (0 : Fin 2) * 1 + 1 * z.val = z.val; rw [h2.1]; omega
    | ⟨1, _⟩ => show win0_2.index t (1 : Fin 2) * 1024 + 1 * f.val = f.val; rw [h2.2]; omega)
  rw [hemb]
  exact V_v7_apply m c z f

/-- The staged Wo table at (e, f) is Wo at (f, e). -/
theorem iblk3_apply (c : Dev nD) (t : Fin cfg0.N) (e : Fin 1024) (f : Fin 1024) :
    (iblk m c 3 t : Vec Ideal S1024x1024 .bf16) (ix2 e f) = ((m ((c : Thread nD τ).loc main_arg4)) : S1024x1024.Idx → EReal) (ix2 f e) := by
  obtain ⟨h1, h2, h3, h4, h5, h6⟩ := idx_resident t
  unfold iblk
  rw [View.read_apply]
  show V m c main_v3 (((cfg0.win 3).blk t).view.emb (ix2 e f)) = _
  have hemb : ((cfg0.win 3).blk t).view.emb (ix2 e f) = ix2 e f := funext fun d => Fin.ext (by
    match d with
    | ⟨0, _⟩ => show win0_3.index t (0 : Fin 2) * 1024 + 1 * e.val = e.val; rw [h3.1]; omega
    | ⟨1, _⟩ => show win0_3.index t (1 : Fin 2) * 1024 + 1 * f.val = f.val; rw [h3.2]; omega)
  rw [hemb]
  exact V_v3_apply m c e f

/-- The staged output bias row at (0, f) is bo at f. -/
theorem iblk4_apply (c : Dev nD) (t : Fin cfg0.N) (z : Fin 1) (f : Fin 1024) :
    (iblk m c 4 t : Vec Ideal S1x1024 .f32) (ix2 z f) = ((m ((c : Thread nD τ).loc main_arg5)) : S1024.Idx → EReal) (ix1 f) := by
  obtain ⟨h1, h2, h3, h4, h5, h6⟩ := idx_resident t
  unfold iblk
  rw [View.read_apply]
  show V m c main_v8 (((cfg0.win 4).blk t).view.emb (ix2 z f)) = _
  have hemb : ((cfg0.win 4).blk t).view.emb (ix2 z f) = ix2 z f := funext fun d => Fin.ext (by
    match d with
    | ⟨0, _⟩ => show win0_4.index t (0 : Fin 2) * 1 + 1 * z.val = z.val; rw [h4.1]; omega
    | ⟨1, _⟩ => show win0_4.index t (1 : Fin 2) * 1024 + 1 * f.val = f.val; rw [h4.2]; omega)
  rw [hemb]
  exact V_v8_apply m c z f

/-- The staged memory bank at (s, e) is the argument there. -/
theorem iblk5_apply (c : Dev nD) (t : Fin cfg0.N) (s : Fin 256) (e : Fin 1024) :
    (iblk m c 5 t : Vec Ideal S256x1024 .bf16) (ix2 s e) = ((m ((c : Thread nD τ).loc main_arg1)) : S256x1024.Idx → EReal) (ix2 s e) := by
  obtain ⟨h1, h2, h3, h4, h5, h6⟩ := idx_resident t
  unfold iblk
  rw [View.read_apply]
  show V m c main_v4 (((cfg0.win 5).blk t).view.emb (ix2 s e)) = _
  have hemb : ((cfg0.win 5).blk t).view.emb (ix2 s e) = ix2 s e := funext fun d => Fin.ext (by
    match d with
    | ⟨0, _⟩ => show win0_5.index t (0 : Fin 2) * 256 + 1 * s.val = s.val; rw [h5.1]; omega
    | ⟨1, _⟩ => show win0_5.index t (1 : Fin 2) * 1024 + 1 * e.val = e.val; rw [h5.2]; omega)
  rw [hemb]
  exact V_v4_apply m c s e

/-- The staged transposed memory bank at (e, s) is the argument at (s, e). -/
theorem iblk6_apply (c : Dev nD) (t : Fin cfg0.N) (e : Fin 1024) (s : Fin 256) :
    (iblk m c 6 t : Vec Ideal S1024x256 .bf16) (ix2 e s) = ((m ((c : Thread nD τ).loc main_arg1)) : S256x1024.Idx → EReal) (ix2 s e) := by
  obtain ⟨h1, h2, h3, h4, h5, h6⟩ := idx_resident t
  unfold iblk
  rw [View.read_apply]
  show V m c main_v6 (((cfg0.win 6).blk t).view.emb (ix2 e s)) = _
  have hemb : ((cfg0.win 6).blk t).view.emb (ix2 e s) = ix2 e s := funext fun d => Fin.ext (by
    match d with
    | ⟨0, _⟩ => show win0_6.index t (0 : Fin 2) * 1024 + 1 * e.val = e.val; rw [h6.1]; omega
    | ⟨1, _⟩ => show win0_6.index t (1 : Fin 2) * 256 + 1 * s.val = s.val; rw [h6.2]; omega)
  rw [hemb]
  exact V_v6_apply m c e s

/-! ## Every point writes a block of one array -/

/-- The result array: `Attn.G` of the six arguments as launched. -/
abbrev result (c : Dev nD) : S8x4096x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- WHAT POINT t WRITES BACK is block t of `result`. -/
theorem flushed_eq (c : Dev nD) (t : Fin cfg0.N) :
    (dats m 0 c).flushed 7 t = ((cfg0.win 7).blk t).view.read (Elt Ideal) (result m c) := by
  rw [Cert.KernelIdeal.Value.flushed7]
  funext y
  obtain ⟨z, r, f, rfl⟩ : ∃ (z : Fin 1) (r : Fin 512) (f : Fin 1024), y = ix3 z r f := ⟨y 0, y 1, y 2, eq_ix3 y⟩
  rw [View.read_apply]
  show out0_7 (iblk m c 0 t) (iblk m c 1 t) (iblk m c 2 t) (iblk m c 3 t) (iblk m c 4 t) (iblk m c 5 t) (iblk m c 6 t) (ix3 z r f)
      = result m c (((cfg0.win 7).blk t).view.emb (ix3 z r f))
  obtain ⟨-, -, -, e3, e4, e5⟩ := idx_moving t
  have hemb : ((cfg0.win 7).blk t).view.emb (ix3 z r f)
      = ix3 (⟨win0_7.index t (0 : Fin 3), by omega⟩ : Fin 8) (⟨win0_7.index t (1 : Fin 3) * 512 + r.val, by have := r.isLt; omega⟩ : Fin 4096) f :=
    funext fun d => Fin.ext (by
      match d with
      | ⟨0, _⟩ => show win0_7.index t (0 : Fin 3) * 1 + 1 * z.val = win0_7.index t (0 : Fin 3); have := z.isLt; omega
      | ⟨1, _⟩ => show win0_7.index t (1 : Fin 3) * 512 + 1 * r.val = win0_7.index t (1 : Fin 3) * 512 + r.val; omega
      | ⟨2, _⟩ => show win0_7.index t (2 : Fin 3) * 1024 + 1 * f.val = f.val; rw [e3]; omega)
  rw [hemb]
  refine (out7_apply (iblk m c 0 t) (iblk m c 1 t) (iblk m c 2 t) (iblk m c 3 t) (iblk m c 4 t) (iblk m c 5 t) (iblk m c 6 t) z r f).trans ?_
  unfold result
  rw [G_apply]
  exact rowOut_congr (fun e => iblk0_apply m c t r e _ _ rfl rfl) (fun e f => iblk1_apply m c t e f) (fun f => iblk2_apply m c t 0 f)
    (fun e s => iblk6_apply m c t e s) (fun s e => iblk5_apply m c t s e) (fun e f => iblk3_apply m c t e f)
    (fun f => iblk4_apply m c t 0 f) f

/-! ## The blocks cover the array -/

/-- An index of the result array is in point t's block iff each coordinate is in the block's range on its axis. -/
theorem mem_blk (t : Fin cfg0.N) (i : S8x4096x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v9).slice (win0_7.rect t)).set ↔ _
  rw [View.set_slice_whole, Rect.mem_set_unit]
  exact Iff.rfl

/-- Entry (b, q, f) is in the block of the point with batch b and row block q / 512. -/
theorem cover (i : S8x4096x1024.Idx) : ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-! ## The array after the run, and the run -/

/-- THE RESULT ARRAY after the run is `result`. -/
theorem final (c : Dev nD) : (dats m 0 c).arrAt 7 cfg0.N = result m c :=
  (dats m 0 c).arrAt_eq_of_cover 7 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Attn.KernelBlocks

end
-- ==== Proof.RefRow.lean ====
/-
  The reference's stages read at (b, q, ·), at the ideal values: each is the matching piece of `Attn.rowOut` of row (b, q)
  of x, with the tables read as the reference contracts them (Wq, Wo and the memory bank on their SECOND axis for the two
  projections and the scores, the memory bank on its FIRST for the attended sum).

  The generated read-at-an-index lemmas give every stage but the row maximum, which is the host's reduce with a maximum body:
  at (b, q) the fold of `max` from −∞ over the 256 scores; the further maximum with −∞ returns it.
-/
import proofs.«101912_j82952998355251_1_alg».proof.Proof.Gen.ReferenceIdeal.Read
import proofs.«101912_j82952998355251_1_alg».proof.Proof.AttnRow

noncomputable section

open scoped BigOperators

namespace Cert.Attn.RefRow

open Cert.ReferenceIdeal Cert.ReferenceIdeal.Gen Cert.ReferenceIdeal.Read Idealize.ShloMosaic Idealize.ShloMosaic.ValueIdx
open Idealize.ShloMosaic.SoftmaxRows Cert.Attn

variable (x0 : (⟨S8x4096x1024, .f32⟩ : BufTy).Contents (Elt Ideal)) (x1 : (⟨S256x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x1024, .f32⟩ : BufTy).Contents (Elt Ideal)) (x5 : (⟨S1024, .f32⟩ : BufTy).Contents (Elt Ideal))

/-- The queries of row (b, q). -/
theorem v3_at (b : Fin 8) (q : Fin 4096) (f : Fin 1024) :
    val_main_v3 (F := Ideal) x0 x2 x3 (ix3 b q f)
      = queries (fun e => x0 (ix3 b q e)) (fun e f => x2 (ix2 f e)) (fun f => x3 (ix1 f)) f := by
  have h0 : val_main_v0 (F := Ideal) x0 x2 (ix3 b q f) = ∑ k : Fin 1024, x0 (ix3 b q k) * x2 (ix2 f k) :=
    (val_main_v0_apply x0 x2 (ix3 b q f)).trans (Finset.sum_congr rfl fun k _ =>
      congrArg₂ (· * ·) (congrArg x0 (funext fun a => Fin.ext (by match a with | ⟨0, _⟩ => rfl | ⟨1, _⟩ => rfl | ⟨2, _⟩ => rfl))) (congrArg x2 (funext fun a => Fin.ext (by match a with | ⟨0, _⟩ => rfl | ⟨1, _⟩ => rfl))))
  have h2 : val_main_v2 (F := Ideal) x3 (ix3 b q f) = x3 (ix1 f) :=
    (val_main_v2_apply x3 (ix3 b q f)).trans ((val_main_v1_apply x3 _).trans (congrArg x3 (funext fun a => Fin.ext (by match a with | ⟨0, _⟩ => rfl))))
  unfold queries
  rw [val_main_v3_apply, Ideal.addf_def, h0, h2]

/-- The scores of row (b, q). -/
theorem v4_at (b : Fin 8) (q : Fin 4096) (s : Fin 256) :
    val_main_v4 (F := Ideal) x0 x1 x2 x3 (ix3 b q s)
      = scores (queries (fun e => x0 (ix3 b q e)) (fun e f => x2 (ix2 f e)) (fun f => x3 (ix1 f))) (fun e s => x1 (ix2 s e)) s := by
  unfold scores
  exact (val_main_v4_apply x0 x1 x2 x3 (ix3 b q s)).trans (Finset.sum_congr rfl fun k _ =>
    congrArg₂ (· * ·) ((congrArg (val_main_v3 (F := Ideal) x0 x2 x3) (funext fun a => Fin.ext (by match a with | ⟨0, _⟩ => rfl | ⟨1, _⟩ => rfl | ⟨2, _⟩ => rfl) : lidx_main_v4 (ix3 b q s) k = ix3 b q k)).trans (v3_at x0 x2 x3 b q k))
      (congrArg x1 (funext fun a => Fin.ext (by match a with | ⟨0, _⟩ => rfl | ⟨1, _⟩ => rfl))))

/-- The row maximum, with the further maximum against −∞: the fold of `max` from −∞ over the row's scores. -/
theorem v7_at (b : Fin 8) (q : Fin 4096) :
    val_main_v7 (F := Ideal) x0 x1 x2 x3 (ix2 b q)
      = (Finset.univ : Finset (Fin 256)).fold max negInf (fun c => val_main_v4 (F := Ideal) x0 x1 x2 x3 (ix3 b q c)) := by
  have h5 : val_main_v5 (F := Ideal) x0 x1 x2 x3 (ix2 b q)
      = (Finset.univ : Finset (Fin 256)).fold max negInf (fun c => val_main_v4 (F := Ideal) x0 x1 x2 x3 (ix3 b q c)) := by
    unfold val_main_v5
    exact hostLaneMax3_apply _ _ reducesTo_S8x4096x256_S8x4096_d2 (by decide) h_S_ b q
  rw [val_main_v7_apply, val_main_v6_apply, val_main_cst_0_apply, h5]
  exact max_fold_max_self _ _ _

/-- The exponential of a score less its row's maximum. -/
theorem v11_at (b : Fin 8) (q : Fin 4096) (s : Fin 256) :
    val_main_v11 (F := Ideal) x0 x1 x2 x3 (ix3 b q s)
      = Ideal.exp (val_main_v4 (F := Ideal) x0 x1 x2 x3 (ix3 b q s)
          - (Finset.univ : Finset (Fin 256)).fold max negInf (fun c => val_main_v4 (F := Ideal) x0 x1 x2 x3 (ix3 b q c))) := by
  have h9 : val_main_v9 (F := Ideal) x0 x1 x2 x3 (ix3 b q s) = val_main_v7 (F := Ideal) x0 x1 x2 x3 (ix2 b q) :=
    (val_main_v9_apply x0 x1 x2 x3 (ix3 b q s)).trans ((val_main_v8_apply x0 x1 x2 x3 _).trans
      (congrArg (val_main_v7 (F := Ideal) x0 x1 x2 x3) (funext fun a => Fin.ext (by match a with | ⟨0, _⟩ => rfl | ⟨1, _⟩ => rfl))))
  rw [val_main_v11_apply, val_main_v10_apply, h9, v7_at]
  rfl

/-- The softmax weights of row (b, q). -/
theorem v15_at (b : Fin 8) (q : Fin 4096) (s : Fin 256) :
    val_main_v15 (F := Ideal) x0 x1 x2 x3 (ix3 b q s)
      = softmaxAt (fun c => val_main_v4 (F := Ideal) x0 x1 x2 x3 (ix3 b q c)) negInf s := by
  have h12 : val_main_v12 (F := Ideal) x0 x1 x2 x3 (ix2 b q) = ∑ k : Fin 256, val_main_v11 (F := Ideal) x0 x1 x2 x3 (ix3 b q k) := by
    rw [val_main_v12_apply, val_main_cst_1_apply]
    show Ideal.ofBits .f32 0x00000000#32 + _ = _
    rw [Ideal.ofBits_zero_f32, zero_add]
    exact Finset.sum_congr rfl fun k _ => congrArg (val_main_v11 (F := Ideal) x0 x1 x2 x3) (funext fun a => Fin.ext (by match a with | ⟨0, _⟩ => rfl | ⟨1, _⟩ => rfl | ⟨2, _⟩ => rfl))
  have h14 : val_main_v14 (F := Ideal) x0 x1 x2 x3 (ix3 b q s) = ∑ k : Fin 256, val_main_v11 (F := Ideal) x0 x1 x2 x3 (ix3 b q k) :=
    (val_main_v14_apply x0 x1 x2 x3 (ix3 b q s)).trans ((val_main_v13_apply x0 x1 x2 x3 _).trans
      ((congrArg (val_main_v12 (F := Ideal) x0 x1 x2 x3) (funext fun a => Fin.ext (by match a with | ⟨0, _⟩ => rfl | ⟨1, _⟩ => rfl) : idx_main_v13 (idx_main_v14 (ix3 b q s)) = ix2 b q)).trans h12))
  rw [val_main_v15_apply, h14]
  unfold softmaxAt
  show Ideal.div _ _ = _
  exact congrArg₂ Ideal.div (v11_at x0 x1 x2 x3 b q s) (Finset.sum_congr rfl fun c _ => v11_at x0 x1 x2 x3 b q c)

/-- The attended row (b, q). -/
theorem v16_at (b : Fin 8) (q : Fin 4096) (e : Fin 1024) :
    val_main_v16 (F := Ideal) x0 x1 x2 x3 (ix3 b q e)
      = attended (fun s => val_main_v15 (F := Ideal) x0 x1 x2 x3 (ix3 b q s)) (fun s e => x1 (ix2 s e)) e := by
  unfold attended
  exact (val_main_v16_apply x0 x1 x2 x3 (ix3 b q e)).trans (Finset.sum_congr rfl fun k _ =>
    congrArg₂ (· * ·) (congrArg (val_main_v15 (F := Ideal) x0 x1 x2 x3) (funext fun a => Fin.ext (by match a with | ⟨0, _⟩ => rfl | ⟨1, _⟩ => rfl | ⟨2, _⟩ => rfl))) (congrArg x1 (funext fun a => Fin.ext (by match a with | ⟨0, _⟩ => rfl | ⟨1, _⟩ => rfl))))

/-- The projected row (b, q). -/
theorem v17_at (b : Fin 8) (q : Fin 4096) (f : Fin 1024) :
    val_main_v17 (F := Ideal) x0 x1 x2 x3 x4 (ix3 b q f)
      = project (fun e => val_main_v16 (F := Ideal) x0 x1 x2 x3 (ix3 b q e)) (fun e f => x4 (ix2 f e)) f := by
  unfold project
  exact (val_main_v17_apply x0 x1 x2 x3 x4 (ix3 b q f)).trans (Finset.sum_congr rfl fun k _ =>
    congrArg₂ (· * ·) (congrArg (val_main_v16 (F := Ideal) x0 x1 x2 x3) (funext fun a => Fin.ext (by match a with | ⟨0, _⟩ => rfl | ⟨1, _⟩ => rfl | ⟨2, _⟩ => rfl))) (congrArg x4 (funext fun a => Fin.ext (by match a with | ⟨0, _⟩ => rfl | ⟨1, _⟩ => rfl))))

/-- THE REFERENCE'S RESULT at (b, q, f) is the attention row of row (b, q) of x, at f. -/
theorem v21_at (b : Fin 8) (q : Fin 4096) (f : Fin 1024) :
    val_main_v21 (F := Ideal) x0 x1 x2 x3 x4 x5 (ix3 b q f)
      = rowOut (fun e => x0 (ix3 b q e)) (fun e f => x2 (ix2 f e)) (fun f => x3 (ix1 f)) (fun e s => x1 (ix2 s e))
          (fun s e => x1 (ix2 s e)) (fun e f => x4 (ix2 f e)) (fun f => x5 (ix1 f)) f := by
  have h19 : val_main_v19 (F := Ideal) x5 (ix3 b q f) = x5 (ix1 f) :=
    (val_main_v19_apply x5 (ix3 b q f)).trans ((val_main_v18_apply x5 _).trans (congrArg x5 (funext fun a => Fin.ext (by match a with | ⟨0, _⟩ => rfl))))
  have hmid : val_main_v17 (F := Ideal) x0 x1 x2 x3 x4 (ix3 b q f)
      = rowMid (fun e => x0 (ix3 b q e)) (fun e f => x2 (ix2 f e)) (fun f => x3 (ix1 f)) (fun e s => x1 (ix2 s e))
          (fun s e => x1 (ix2 s e)) (fun e f => x4 (ix2 f e)) f := by
    refine (v17_at x0 x1 x2 x3 x4 b q f).trans ?_
    unfold rowMid
    refine congrArg (fun a => project a (fun e f => x4 (ix2 f e)) f) (funext fun e => ?_)
    refine (v16_at x0 x1 x2 x3 b q e).trans ?_
    refine congrArg (fun w => attended w (fun s e => x1 (ix2 s e)) e) (funext fun s => ?_)
    refine (v15_at x0 x1 x2 x3 b q s).trans ?_
    exact congrArg (fun row => softmaxAt row negInf s) (funext fun c => v4_at x0 x1 x2 x3 b q c)
  unfold rowOut
  rw [val_main_v21_apply, val_main_v20_apply, Ideal.addf_def, Ideal.addf_def, hmid, h19]

end Cert.Attn.RefRow

end
-- ==== Proof.RefArray.lean ====
/-
  The reference's result array IS `Attn.G` of its six arguments: index by index, by the stages read at (b, q, ·).
-/
import proofs.«101912_j82952998355251_1_alg».proof.Proof.RefRow
import proofs.«101912_j82952998355251_1_alg».proof.Proof.AttnArray

noncomputable section

namespace Cert.Attn.RefArray

open Cert.ReferenceIdeal Cert.ReferenceIdeal.Gen Cert.ReferenceIdeal.Read Idealize.ShloMosaic Idealize.ShloMosaic.ValueIdx
open Cert.Attn Cert.Attn.RefRow

/-- The last stage of the reference, as one array, is the attention of every row of x. -/
theorem ref_eq_G (x0 : (⟨S8x4096x1024, .f32⟩ : BufTy).Contents (Elt Ideal)) (x1 : (⟨S256x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal)) (x5 : (⟨S1024, .f32⟩ : BufTy).Contents (Elt Ideal)) :
    val_main_v21 (F := Ideal) x0 x1 x2 x3 x4 x5 = G x0 x1 x2 x3 x4 x5 := by
  funext i
  obtain ⟨b, q, f, rfl⟩ : ∃ (b : Fin 8) (q : Fin 4096) (f : Fin 1024), i = ix3 b q f := ⟨i 0, i 1, i 2, eq_ix3 i⟩
  exact v21_at x0 x1 x2 x3 x4 x5 b q f

end Cert.Attn.RefArray

end
-- ==== Proof.lean ====
/-
  Attention over a fixed memory bank, with a residual: for x [8, 4096, 1024], a memory bank [256, 1024], Wq, Wo [1024, 1024]
  and biases bq, bo [1024], every row (b, q) of the result is

      (softmax (((x_bq · Wqᵀ) + bq) · memᵀ) · mem) · Woᵀ + bo + x_bq .

  The kernel computes 512 rows per grid point from tables the host transposed beforehand, changing float format in front of
  every product; the reference contracts the untransposed tables. At the ideal values a change of format is the identity, a
  product into a zero accumulator and a contraction are the same sum over the contracted coordinate, and both sides spell the
  softmax the same way (row maximum from −∞, taken once more against −∞; subtract; exponentiate; divide by the row sum). So the
  two results are ONE function `Attn.G` of the six arguments, entry by entry, with no appeal to the finiteness of the inputs:
  no law used here fails at an infinity, since nothing is distributed, cancelled or reordered — each sum keeps its order and
  each product its sides.

  The modules: `AttnRow` / `AttnArray` (the specification), `KernelDots` / `KernelStages` (the body's value at an index),
  `KernelArrays` (the transposed tables and bias rows the region finds), `KernelBlocks` (every grid point writes a block of
  `Attn.G`, the blocks cover the array), `RefRow` / `RefArray` (the reference's stages at an index; its result is `Attn.G`).
  The idealized kernel is the kernel's own text read at the ideal values, so nothing is owed for it; the three frames are the
  generated ones (the reference's is its run with the result dropped).
-/
import proofs.«101912_j82952998355251_1_alg».proof.Defs
import proofs.«101912_j82952998355251_1_alg».proof.Proof.Gen.Kernel
import proofs.«101912_j82952998355251_1_alg».proof.Proof.Gen.Kernel.Skeleton
import proofs.«101912_j82952998355251_1_alg».proof.Proof.Gen.Kernel.Launch
import proofs.«101912_j82952998355251_1_alg».proof.Proof.Gen.Kernel.Points
import proofs.«101912_j82952998355251_1_alg».proof.Proof.Gen.Kernel.Frame
import proofs.«101912_j82952998355251_1_alg».proof.Proof.Gen.KernelIdeal
import proofs.«101912_j82952998355251_1_alg».proof.Proof.Gen.KernelIdeal.Skeleton
import proofs.«101912_j82952998355251_1_alg».proof.Proof.Gen.KernelIdeal.Launch
import proofs.«101912_j82952998355251_1_alg».proof.Proof.Gen.KernelIdeal.Points
import proofs.«101912_j82952998355251_1_alg».proof.Proof.Gen.KernelIdeal.Frame
import proofs.«101912_j82952998355251_1_alg».proof.Proof.Gen.ReferenceIdeal
import proofs.«101912_j82952998355251_1_alg».proof.Proof.Gen.Pre_finite_inputs
import proofs.«101912_j82952998355251_1_alg».proof.Proof.Gen.KernelIdeal.Value
import proofs.«101912_j82952998355251_1_alg».proof.Proof.Gen.ReferenceIdeal.Run
import proofs.«101912_j82952998355251_1_alg».proof.Proof.Gen.ReferenceIdeal.Read
import proofs.«101912_j82952998355251_1_alg».proof.Proof.KernelBlocks
import proofs.«101912_j82952998355251_1_alg».proof.Proof.RefArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values, from memories agreeing on the six arguments, the kernel's result array ends at `Attn.G` of them
    (every grid point writes a block of it and the blocks cover the array) and the reference's at its last stage, which is
    `Attn.G` of the same arguments index by index. -/
theorem algebraic : Cert.algebraic_KernelIdeal_ReferenceIdeal := by
  intro m ρ m' ρ' _ hagree
  refine ⟨fun c => Cert.Attn.KernelBlocks.result m c, Cert.Attn.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Attn.RefArray.ref_eq_G, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
